-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with every buffer that outlives a launch named.

  The program is four segments: the host operations that build the first neighbour mean, the first launch, the host
  operations that build the second neighbour mean from the first launch's result, the second launch.  Every weakly fair
  execution terminates, and each such buffer of the final memory holds what the fold of the four segments from the launch
  memory leaves in it (`Gen.W4`): a host stretch's operations applied in order, a launch's arrays at what its write-backs
  leave, every other buffer untouched.  The result array and the unchanged arguments are read off this one statement.
-/
import proofs.«120897_j54571854463793_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of the TensorCore at
    the contents the four segments' fold leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array after the run is what the fold leaves in it. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.Named

end
-- ==== Proof.LibDenseLayer.lean ====
/-
  Dense layers over the extended reals, read one output element at a time.

  A dense layer sends a row `h` (length `K`) to the row whose entry `n` is `∑ k, h k * W k n + b n`; a hidden layer
  then rectifies and masks it: entry `n` becomes `max y 0 * m n`.  This file states those row functions and proves, for
  any extents `R`, `K`, `N`, that the vector-level operations computing a layer on an `[R, K]` block —
  a matrix product into a zero accumulator (or a host dot product) over the plain `[R,K] × [K,N]` dimension numbers,
  a bias row broadcast over the rows, and either `select (y > 0) (y * m) 0` or `max y 0 * m` — read at entry `(p, q)`
  are the row function of row `p` of the operands, at `q`.  The two rectifier spellings agree on every extended real:
  for `y ≤ 0` both are `0` because `0 * m = 0` whatever `m` is.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.DenseLayer

/-! ## The row functions -/

/-- Entry `n` of a dense layer's output row: the input row against column `n` of the weights, plus the bias. -/
def dense {K N : ℕ} (h : Fin K → EReal) (W : Fin K → Fin N → EReal) (b : Fin N → EReal) : Fin N → EReal :=
  fun n => (∑ k : Fin K, h k * W k n) + b n

/-- Rectify, then scale by the mask entry. -/
def act (y m : EReal) : EReal := max y 0 * m

/-- A hidden layer's output row: dense, rectified, masked. -/
def layer {K N : ℕ} (h : Fin K → EReal) (W : Fin K → Fin N → EReal) (b : Fin N → EReal) (m : Fin N → EReal) :
    Fin N → EReal :=
  fun n => act (dense h W b n) (m n)

/-- Choosing `y * m` where `y > 0` and `0` elsewhere is `max y 0 * m`: where `y ≤ 0` the product `0 * m` is `0`. -/
theorem select_gt_eq_act (y m : EReal) : Scalar.select (Ideal.cmp .ogt y 0) (y * m) 0 = act y m := by
  unfold act Scalar.select Ideal.cmp
  by_cases h : (0 : EReal) < y
  · simp [h, max_eq_left h.le]
  · simp [h, max_eq_right (not_lt.mp h)]

/-! ## The plain matrix product read at an entry -/

/-- Over the plain dimension numbers the contraction index is the one coordinate `k`, the left operand is read at
    `(p, k)` and the right at `(k, q)`. -/
theorem plain_sum {M K N : ℕ} (a : (⟨2, ![M, K]⟩ : Shape).Idx → EReal) (b : (⟨2, ![K, N]⟩ : Shape).Idx → EReal)
    (p : Fin M) (q : Fin N) :
    ∑ k : (DotDims.plain M K N).contr.Idx,
        a ((DotDims.plain M K N).lhsIdx (ix2 p q) k) * b ((DotDims.plain M K N).rhsIdx (ix2 p q) k)
      = ∑ k : Fin K, a (ix2 p k) * b (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- A matrix product into the zero accumulator, over dimension numbers that are the plain ones, at entry `(p, q)`. -/
theorem matmul_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    matmul d prec a b (constant ⟨2, ![R, N]⟩ .f32 0x00000000#32) (ix2 p q) = ∑ k : Fin K, a (ix2 p k) * b (ix2 k q) := by
  subst hd
  show FloatOps.matmul _ prec a b (constant ⟨2, ![R, N]⟩ .f32 0x00000000#32) (ix2 p q) = _
  rw [Ideal.matmul_constant_zero_apply]
  exact plain_sum a b p q

/-- The host's dot product over the plain dimension numbers, at entry `(p, q)`. -/
theorem dotGeneral_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    Host.dotGeneral d prec a b (ix2 p q) = ∑ k : Fin K, a (ix2 p k) * b (ix2 k q) := by
  subst hd
  simp only [Host.dotGeneral]
  rw [Ideal.dotGeneral_apply]
  exact plain_sum a b p q

/-! ## The bias row -/

/-- A bias vector cast to one row and broadcast over `R` rows reads `b q` at `(p, q)`. -/
theorem bias_rows_apply {α : Type} {R N : ℕ} (b : (⟨1, ![N]⟩ : Shape).Idx → α)
    (sc : (⟨1, ![N]⟩ : Shape).ShapeCasts ⟨2, ![1, N]⟩) (bc : (⟨2, ![1, N]⟩ : Shape).Broadcasts ⟨2, ![R, N]⟩)
    (p : Fin R) (q : Fin N) :
    broadcastTo ⟨2, ![R, N]⟩ (shapeCast ⟨2, ![1, N]⟩ b sc) bc (ix2 p q) = b (ix1 q) :=
  (broadcastTo_1b_ab_apply _ bc p q).trans (shapeCast_a_1a_apply b sc 0 q)

/-- The host's spelling: the vector placed on axis 1 of a one-row array, that row placed on both axes of the
    `[R, N]` array. -/
theorem bias_rows_host_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  have hq : q.val = if N = 1 then 0 else q.val := by
    split
    · have := q.isLt; omega
    · rfl
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => exact hq
  · match a with
    | ⟨0, _⟩ => exact hq

/-! ## Rectifier and mask -/

/-- The kernel's spelling, at any entry: `y * m` where `y` exceeds the zero splat, the zero splat elsewhere. -/
theorem select_gt_apply {s : Shape} (y m : FVec Ideal s .f32) (i : s.Idx) :
    select (cmpf .ogt y (broadcast s (Scalar.ofBits .f32 0x00000000#32))) (mulf y m)
        (broadcast s (Scalar.ofBits .f32 0x00000000#32)) i = act (y i) (m i) := by
  show Scalar.select (Ideal.cmp .ogt (y i) (Ideal.ofBits .f32 0x00000000#32)) (y i * m i) (Ideal.ofBits .f32 0x00000000#32) = _
  rw [Ideal.ofBits_zero_f32]
  exact select_gt_eq_act _ _

/-- The host's spelling, at any entry: the maximum with the zero scalar broadcast to the shape, times the mask. -/
theorem relu_mask_host_apply {s : Shape} (y m : FVec Ideal s .f32) (h0 : (⟨0, ![]⟩ : Shape).BroadcastsInDim s ![])
    (i : s.Idx) :
    mulf (maximumf y (broadcastInDim s ![] h0 (constant (F := Ideal) ⟨0, ![]⟩ .f32 0x00000000#32))) m i = act (y i) (m i) := by
  show max (y i) (broadcastInDim s ![] h0 (constant (F := Ideal) ⟨0, ![]⟩ .f32 0x00000000#32) i) * m i = _
  rw [broadcastInDim_apply _ h0 _ i ix0 (fun a => a.elim0)]
  show max (y i) (Ideal.ofBits .f32 0x00000000#32) * m i = _
  rw [Ideal.ofBits_zero_f32]
  rfl

/-! ## Whole arrays, row by row

  The same layers on `[R, ·]` arrays: entry `(r, n)` of the output depends on row `r` of the row-indexed operands
  only, so a layer computed on a block of rows is that block of rows of the layer computed on the whole arrays. -/

/-- Row `r` of a two-axis array. -/
abbrev row {R C : ℕ} (A : (⟨2, ![R, C]⟩ : Shape).Idx → EReal) (r : Fin R) : Fin C → EReal := fun k => A (ix2 r k)
/-- A two-axis array as a function of its two coordinates. -/
abbrev mat {K N : ℕ} (W : (⟨2, ![K, N]⟩ : Shape).Idx → EReal) : Fin K → Fin N → EReal := fun k n => W (ix2 k n)
/-- A one-axis array as a function of its coordinate. -/
abbrev vec {N : ℕ} (b : (⟨1, ![N]⟩ : Shape).Idx → EReal) : Fin N → EReal := fun n => b (ix1 n)

/-- The dense layer on every row: entry `(r, n)` is `∑ k, H (r, k) * W (k, n) + b n`. -/
def denseArr {R K N : ℕ} (H : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => dense (row H ⟨(i 0).val, idx2_lt0 i⟩) (mat W) (vec b) ⟨(i 1).val, idx2_lt1 i⟩

/-- Rectifier and mask, entry by entry. -/
def actArr {s : Shape} (Y M : s.Idx → EReal) : s.Idx → EReal := fun i => act (Y i) (M i)

/-- A hidden layer on every row. -/
def layerArr {R K N : ℕ} (H : (⟨2, ![R, K]⟩ : Shape).Idx → EReal) (W : (⟨2, ![K, N]⟩ : Shape).Idx → EReal)
    (b : (⟨1, ![N]⟩ : Shape).Idx → EReal) (M : (⟨2, ![R, N]⟩ : Shape).Idx → EReal) :
    (⟨2, ![R, N]⟩ : Shape).Idx → EReal :=
  actArr (denseArr H W b) M

theorem denseArr_ix2 {R K N : ℕ} (H : (⟨2, ![R, K]⟩ : Shape).Idx → EReal) (W : (⟨2, ![K, N]⟩ : Shape).Idx → EReal)
    (b : (⟨1, ![N]⟩ : Shape).Idx → EReal) (p : Fin R) (q : Fin N) :
    denseArr H W b (ix2 p q) = dense (row H p) (mat W) (vec b) q := rfl

/-- The kernel's dense step as an array: product into the zero accumulator plus the broadcast bias row. -/
theorem kernel_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (sc : (⟨1, ![N]⟩ : Shape).ShapeCasts ⟨2, ![1, N]⟩) (bc : (⟨2, ![1, N]⟩ : Shape).Broadcasts ⟨2, ![R, N]⟩) :
    addf (matmul d prec a W (constant ⟨2, ![R, N]⟩ .f32 0x00000000#32))
        (broadcastTo ⟨2, ![R, N]⟩ (shapeCast ⟨2, ![1, N]⟩ b sc) bc) = denseArr a W b := by
  funext i
  obtain ⟨p, q, rfl⟩ : ∃ (p : Fin R) (q : Fin N), i = ix2 p q := ⟨i 0, i 1, eq_ix2 i⟩
  show matmul d prec a W (constant ⟨2, ![R, N]⟩ .f32 0x00000000#32) (ix2 p q)
      + broadcastTo ⟨2, ![R, N]⟩ (shapeCast ⟨2, ![1, N]⟩ b sc) bc (ix2 p q) = _
  rw [matmul_plain_apply d hd, bias_rows_apply]
  rfl

/-- The kernel's rectifier-and-mask as an array. -/
theorem kernel_act_eq {s : Shape} (Y M : FVec Ideal s .f32) :
    select (cmpf .ogt Y (broadcast s (Scalar.ofBits .f32 0x00000000#32))) (mulf Y M)
        (broadcast s (Scalar.ofBits .f32 0x00000000#32)) = actArr Y M :=
  funext (select_gt_apply Y M)

/-- The host's dense step as an array. -/
theorem host_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d prec a W) (broadcastInDim ⟨2, ![R, N]⟩ ![0, 1] h2 (broadcastInDim ⟨2, ![1, N]⟩ ![1] h1 b))
      = denseArr a W b := by
  funext i
  obtain ⟨p, q, rfl⟩ : ∃ (p : Fin R) (q : Fin N), i = ix2 p q := ⟨i 0, i 1, eq_ix2 i⟩
  show Host.dotGeneral d prec a W (ix2 p q)
      + broadcastInDim ⟨2, ![R, N]⟩ ![0, 1] h2 (broadcastInDim ⟨2, ![1, N]⟩ ![1] h1 b) (ix2 p q) = _
  rw [dotGeneral_plain_apply d hd, bias_rows_host_apply]
  rfl

/-- The host's rectifier-and-mask as an array. -/
theorem host_act_eq {s : Shape} (Y M : FVec Ideal s .f32) (h0 : (⟨0, ![]⟩ : Shape).BroadcastsInDim s ![]) :
    mulf (maximumf Y (broadcastInDim s ![] h0 (constant (F := Ideal) ⟨0, ![]⟩ .f32 0x00000000#32))) M = actArr Y M :=
  funext (relu_mask_host_apply Y M h0)

/-- A change of float format is the identity on extended reals. -/
theorem truncf_eq {s : Shape} {φ ψ : FTy} (v : FVec Ideal s φ) (h : ψ.bits < φ.bits) : truncf ψ v h = v := rfl

/-! ### Row locality -/

/-- Row `p` of `A` is row `r` of `A'`. -/
def RowEq {R R' C : ℕ} (A : (⟨2, ![R, C]⟩ : Shape).Idx → EReal) (A' : (⟨2, ![R', C]⟩ : Shape).Idx → EReal)
    (p : Fin R) (r : Fin R') : Prop :=
  ∀ k : Fin C, A (ix2 p k) = A' (ix2 r k)

theorem denseArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal} {p : Fin R} {r : Fin R'}
    (hH : RowEq H H' p r) (hW : W = W') (hb : b = b') : RowEq (denseArr H W b) (denseArr H' W' b') p r := by
  intro n
  subst hW hb
  have e : row H p = row H' r := funext hH
  show dense (row H p) (mat W) (vec b) n = dense (row H' r) (mat W) (vec b) n
  rw [e]

theorem actArr_rowEq {R R' C : ℕ} {Y M : (⟨2, ![R, C]⟩ : Shape).Idx → EReal} {Y' M' : (⟨2, ![R', C]⟩ : Shape).Idx → EReal}
    {p : Fin R} {r : Fin R'} (hY : RowEq Y Y' p r) (hM : RowEq M M' p r) : RowEq (actArr Y M) (actArr Y' M') p r := by
  intro n
  show act (Y (ix2 p n)) (M (ix2 p n)) = act (Y' (ix2 r n)) (M' (ix2 r n))
  rw [hY n, hM n]

theorem layerArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal}
    {M : (⟨2, ![R, N]⟩ : Shape).Idx → EReal} {M' : (⟨2, ![R', N]⟩ : Shape).Idx → EReal} {p : Fin R} {r : Fin R'}
    (hH : RowEq H H' p r) (hW : W = W') (hb : b = b') (hM : RowEq M M' p r) :
    RowEq (layerArr H W b M) (layerArr H' W' b' M') p r :=
  actArr_rowEq (denseArr_rowEq hH hW hb) hM

end Cert.DenseLayer

end
-- ==== Proof.SageLayer.lean ====
/-
  One GraphSAGE layer over the extended reals, read one output entry at a time.

  A layer combines, for every node `r`, the mean `M r` of its in-neighbours' feature rows with its own row `X r`:
  entry `(r, n)` of the output is `∑ k, M (r, k) * Wl (k, n) + ∑ k, X (r, k) * Wr (k, n) + b n`; the hidden layer then
  rectifies it, `max · 0`.  Entry `(r, n)` depends on row `r` of `M` and of `X` only, so the layer computed on a block of
  rows is that block of rows of the layer on the whole arrays.  The two-layer network applies the neighbourhood mean, an
  arbitrary function `agg` of the feature array here, before each layer.

  Two spellings of a layer are read here as that function: two matrix products into zero accumulators, added, plus a
  one-row bias broadcast over the rows; and two host dot products, added, plus the bias vector placed on a row and that row
  on every row.  Both rectifier spellings (the zero as a splat scalar, the zero as a broadcast rank-0 constant) are `max · 0`.
-/
import proofs.«120897_j54571854463793_1_alg».proof.Proof.LibDenseLayer

noncomputable section

open Idealize.ShloMosaic Idealize.ShloMosaic.ValueIdx Cert.DenseLayer

namespace Cert.Sage

/-- Entry `(r, n)` of a layer before the rectifier: the neighbour mean's row `r` against column `n` of `Wl`, the node's
    own row against column `n` of `Wr`, and the bias. -/
def comb {R K N : ℕ} (M X : (⟨2, ![R, K]⟩ : Shape).Idx → EReal) (Wl Wr : (⟨2, ![K, N]⟩ : Shape).Idx → EReal)
    (b : Fin N → EReal) : (⟨2, ![R, N]⟩ : Shape).Idx → EReal :=
  fun i => ((∑ k : Fin K, M (ix2 ⟨(i 0).val, idx2_lt0 i⟩ k) * Wl (ix2 k ⟨(i 1).val, idx2_lt1 i⟩))
      + (∑ k : Fin K, X (ix2 ⟨(i 0).val, idx2_lt0 i⟩ k) * Wr (ix2 k ⟨(i 1).val, idx2_lt1 i⟩)))
    + b ⟨(i 1).val, idx2_lt1 i⟩

theorem comb_ix2 {R K N : ℕ} (M X : (⟨2, ![R, K]⟩ : Shape).Idx → EReal) (Wl Wr : (⟨2, ![K, N]⟩ : Shape).Idx → EReal)
    (b : Fin N → EReal) (p : Fin R) (q : Fin N) :
    comb M X Wl Wr b (ix2 p q)
      = ((∑ k : Fin K, M (ix2 p k) * Wl (ix2 k q)) + (∑ k : Fin K, X (ix2 p k) * Wr (ix2 k q))) + b q := rfl

/-- The rectifier, entry by entry. -/
def rect {s : Shape} (Y : s.Idx → EReal) : s.Idx → EReal := fun i => max (Y i) 0

/-- The two-layer network over a neighbourhood mean `agg`: a rectified layer on the features, a plain layer on its
    output, each fed the mean of its own input. -/
def net {R D : ℕ} (agg : ((⟨2, ![R, D]⟩ : Shape).Idx → EReal) → (⟨2, ![R, D]⟩ : Shape).Idx → EReal)
    (x : (⟨2, ![R, D]⟩ : Shape).Idx → EReal) (Wl0 Wr0 : (⟨2, ![D, D]⟩ : Shape).Idx → EReal) (b0 : Fin D → EReal)
    (Wl1 Wr1 : (⟨2, ![D, D]⟩ : Shape).Idx → EReal) (b1 : Fin D → EReal) : (⟨2, ![R, D]⟩ : Shape).Idx → EReal :=
  comb (agg (rect (comb (agg x) x Wl0 Wr0 b0))) (rect (comb (agg x) x Wl0 Wr0 b0)) Wl1 Wr1 b1

/-! ## The two spellings of a layer -/

/-- Two matrix products into zero accumulators, added, plus a one-row bias broadcast over the rows. -/
theorem matmul_comb_eq {R K N : ℕ} {φ₁ φ₂ φ₃ φ₄ : FTy} (d : DotDims ⟨2, ![R, K]⟩ ⟨2, ![K, N]⟩ ⟨2, ![R, N]⟩)
    (hd : d = DotDims.plain R K N) (prec : Option ContractPrecision)
    (m : FVec Ideal ⟨2, ![R, K]⟩ φ₁) (x : FVec Ideal ⟨2, ![R, K]⟩ φ₂)
    (wl : FVec Ideal ⟨2, ![K, N]⟩ φ₃) (wr : FVec Ideal ⟨2, ![K, N]⟩ φ₄) (b : FVec Ideal ⟨2, ![1, N]⟩ .f32)
    (bc : (⟨2, ![1, N]⟩ : Shape).Broadcasts ⟨2, ![R, N]⟩) :
    addf (addf (matmul d prec m wl (constant ⟨2, ![R, N]⟩ .f32 0x00000000#32))
          (matmul d prec x wr (constant ⟨2, ![R, N]⟩ .f32 0x00000000#32)))
        (broadcastTo ⟨2, ![R, N]⟩ b bc)
      = comb m x wl wr (fun q => b (ix2 (0 : Fin 1) q)) := by
  funext i
  obtain ⟨p, q, rfl⟩ : ∃ (p : Fin R) (q : Fin N), i = ix2 p q := ⟨i 0, i 1, eq_ix2 i⟩
  show (matmul d prec m wl (constant ⟨2, ![R, N]⟩ .f32 0x00000000#32) (ix2 p q)
      + matmul d prec x wr (constant ⟨2, ![R, N]⟩ .f32 0x00000000#32) (ix2 p q))
      + broadcastTo ⟨2, ![R, N]⟩ b bc (ix2 p q) = _
  rw [matmul_plain_apply d hd, matmul_plain_apply d hd, broadcastTo_1b_ab_apply]
  rfl

/-- Two host dot products, added, plus the bias vector placed on a row and that row on every row. -/
theorem dot_comb_eq {R K N : ℕ} {φ₁ φ₂ φ₃ φ₄ : FTy} (d : DotDims ⟨2, ![R, K]⟩ ⟨2, ![K, N]⟩ ⟨2, ![R, N]⟩)
    (hd : d = DotDims.plain R K N) (prec : Option ContractPrecision)
    (m : FVec Ideal ⟨2, ![R, K]⟩ φ₁) (x : FVec Ideal ⟨2, ![R, K]⟩ φ₂)
    (wl : FVec Ideal ⟨2, ![K, N]⟩ φ₃) (wr : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d prec m wl) (Host.dotGeneral d prec x wr))
        (broadcastInDim ⟨2, ![R, N]⟩ ![0, 1] h2 (broadcastInDim ⟨2, ![1, N]⟩ ![1] h1 b))
      = comb m x wl wr (vec b) := by
  funext i
  obtain ⟨p, q, rfl⟩ : ∃ (p : Fin R) (q : Fin N), i = ix2 p q := ⟨i 0, i 1, eq_ix2 i⟩
  show (Host.dotGeneral d prec m wl (ix2 p q) + Host.dotGeneral d prec x wr (ix2 p q))
      + broadcastInDim ⟨2, ![R, N]⟩ ![0, 1] h2 (broadcastInDim ⟨2, ![1, N]⟩ ![1] h1 b) (ix2 p q) = _
  rw [dotGeneral_plain_apply d hd, dotGeneral_plain_apply d hd, bias_rows_host_apply]
  rfl

/-- The maximum with a splat zero scalar is the rectifier. -/
theorem max_splat_zero_eq {s : Shape} (y : FVec Ideal s .f32) :
    maximumf y (broadcast s (Scalar.ofBits .f32 0x00000000#32)) = rect y := by
  funext i
  show max (y i) (Ideal.ofBits .f32 0x00000000#32) = max (y i) 0
  rw [Ideal.ofBits_zero_f32]

/-- The maximum with the rank-0 zero constant broadcast to the shape is the rectifier. -/
theorem max_bcast_zero_eq {s : Shape} (y : FVec Ideal s .f32) (h0 : (⟨0, ![]⟩ : Shape).BroadcastsInDim s ![]) :
    maximumf y (broadcastInDim s ![] h0 (constant (F := Ideal) ⟨0, ![]⟩ .f32 0x00000000#32)) = rect y := by
  funext i
  show max (y i) (broadcastInDim s ![] h0 (constant (F := Ideal) ⟨0, ![]⟩ .f32 0x00000000#32) i) = max (y i) 0
  rw [broadcastInDim_apply _ h0 _ i ix0 (fun a => a.elim0)]
  show max (y i) (Ideal.ofBits .f32 0x00000000#32) = max (y i) 0
  rw [Ideal.ofBits_zero_f32]

/-! ## Row locality -/

/-- Where row `p` of `M`, `X` is row `r` of `M'`, `X'`, the layer's row `p` is the other's row `r`. -/
theorem comb_rows {R R' K N : ℕ} {M X : (⟨2, ![R, K]⟩ : Shape).Idx → EReal} {M' X' : (⟨2, ![R', K]⟩ : Shape).Idx → EReal}
    (Wl Wr : (⟨2, ![K, N]⟩ : Shape).Idx → EReal) (b : Fin N → EReal) {p : Fin R} {r : Fin R'}
    (hM : ∀ k : Fin K, M (ix2 p k) = M' (ix2 r k)) (hX : ∀ k : Fin K, X (ix2 p k) = X' (ix2 r k)) (q : Fin N) :
    comb M X Wl Wr b (ix2 p q) = comb M' X' Wl Wr b (ix2 r q) := by
  rw [comb_ix2, comb_ix2]
  simp only [hM, hX]

end Cert.Sage

end
-- ==== Proof.LayerRegions.lean ====
/-
  What each of the two kernel launches leaves in its result array, as one function of the arrays it is entered with.

  A launch walks 20 grid points; point `t` reads rows `5000 t … 5000 t + 4999` of the neighbour-mean array and of the
  feature array, the two whole weight matrices and the one bias row, and writes the same rows of the result: the layer of
  `SageLayer` on that block of rows (rectified in the first launch, plain in the second).  Because entry `(r, n)` of a
  layer depends on row `r` of the row-indexed operands only, the block written at point `t` is block `t` of the layer on
  the whole arrays; the 20 blocks tile the 100000 rows, so the result array ends holding that layer.
-/
import proofs.«120897_j54571854463793_1_alg».proof.Proof.Gen.KernelIdeal.Frame
import proofs.«120897_j54571854463793_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.Sage Cert.DenseLayer

theorem hz : (![0, 0] : Fin 2 → Nat) = fun _ => 0 := funext fun a => by fin_cases a <;> rfl

/-- The body's contraction is the plain `[5000,128] × [128,128]` one. -/
theorem dot_plain : dot_S5000x128_S128x128_S5000x128_1_0_0_1_n_n = DotDims.plain 5000 128 128 := rfl

/-! ## The bodies' arithmetic -/

/-- The first launch's body stores the rectified layer of its five blocks. -/
theorem pay0_eq (x0 x1 : Vec Ideal S5000x128 .f32) (x2 x3 : Vec Ideal S128x128 .f32) (x4 : Vec Ideal S1x128 .f32) :
    k0_pay1 x0 x1 x2 x3 x4 = rect (comb x0 x1 x2 x3 (fun q => x4 (ix2 (0 : Fin 1) q))) := by
  unfold k0_pay1
  simp only [shapeCast_self]
  refine (max_splat_zero_eq _).trans (congrArg rect ?_)
  exact matmul_comb_eq _ dot_plain none _ _ _ _ x4 _

/-- The second launch's body stores the plain layer of its five blocks. -/
theorem pay1_eq (x0 x1 : Vec Ideal S5000x128 .f32) (x2 x3 : Vec Ideal S128x128 .f32) (x4 : Vec Ideal S1x128 .f32) :
    k1_pay1 x0 x1 x2 x3 x4 = comb x0 x1 x2 x3 (fun q => x4 (ix2 (0 : Fin 1) q)) := by
  unfold k1_pay1
  simp only [shapeCast_self]
  exact matmul_comb_eq _ dot_plain none _ _ _ _ x4 _

/-! ## A block of rows of the layer -/

/-- The layer on a block whose rows are rows `5000 T + ·` of the whole arrays, with the same weights and bias row, is at
    `(p, q)` the layer on the whole arrays at `(5000 T + p, q)`. -/
theorem comb_block (M X : S100000x128.Idx → EReal) (Wl Wr : S128x128.Idx → EReal) (B : S1x128.Idx → EReal)
    (m x : S5000x128.Idx → EReal) (wl wr : S128x128.Idx → EReal) (b : S1x128.Idx → EReal) (T : ℕ)
    (hm : ∀ (y : S5000x128.Idx) (i : S100000x128.Idx), (i 0).val = T * 5000 + (y 0).val → (i 1).val = (y 1).val → m y = M i)
    (hx : ∀ (y : S5000x128.Idx) (i : S100000x128.Idx), (i 0).val = T * 5000 + (y 0).val → (i 1).val = (y 1).val → x y = X i)
    (hwl : wl = Wl) (hwr : wr = Wr) (hb : b = B)
    (j : S5000x128.Idx) (i : S100000x128.Idx) (hi0 : (i 0).val = T * 5000 + (j 0).val) (hi1 : (i 1).val = (j 1).val) :
    comb m x wl wr (fun q => b (ix2 (0 : Fin 1) q)) j = comb M X Wl Wr (fun q => B (ix2 (0 : Fin 1) q)) i := by
  subst hwl hwr hb
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext hi1
  subst hq
  exact comb_rows wl wr _ (fun k => hm (ix2 p k) (ix2 r k) hi0 rfl) (fun k => hx (ix2 p k) (ix2 r k) hi0 rfl) q'

/-! ## Launch 0 -/

section Launch0
variable (V : (c : Dev nD) → (b : Ref sig .tc) → Buf (Elt Ideal) ((c : Thread nD τ).loc b))

/-- The printed index maps of launch 0, decided over its 20 points: the two row-blocked inputs move with the output, the
    weights and the bias row stay at block 0, and point `t` writes row block `t`. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) < 20 :=
  (by decide +kernel : ∀ t : Fin grid0.N, _)

/-- Every row block is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- The whole-array function launch 0 computes, of the five arrays it is entered with. -/
abbrev layer0 (c : Dev nD) : S100000x128.Idx → EReal :=
  rect (comb (V c main_v22 : S100000x128.Idx → EReal) (V c main_arg0 : S100000x128.Idx → EReal)
    (V c main_arg2 : S128x128.Idx → EReal) (V c main_arg3 : S128x128.Idx → EReal)
    (fun q => (V c main_v23 : S1x128.Idx → EReal) (ix2 (0 : Fin 1) q)))

/-- What point `t` writes back is block `t` of the layer on the whole arrays. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq]
  obtain ⟨e0, e1, e2, e3, e4, e5, e6, e7, e8, e9, e10, e11⟩ := idx_facts0 t
  funext j
  show rect (comb (iblk0 V c 0 t) (iblk0 V c 1 t) (iblk0 V c 2 t) (iblk0 V c 3 t) (fun q => iblk0 V c 4 t (ix2 (0 : Fin 1) q))) j
    = layer0 V c (((cfg0.win 5).blk t).view.emb j)
  show max _ 0 = max _ 0
  congr 1
  refine comb_block _ _ _ _ _ _ _ _ _ _ (win0_5.index t (0 : Fin 2)) (fun y i h0 h1 => ?_) (fun y i h0 h1 => ?_) ?_ ?_ ?_ j _ ?_ ?_
  · show V c main_v22 (((cfg0.win 0).blk t).view.emb y) = V c main_v22 i
    congr 1
    funext a; apply Fin.ext
    match a with
    | ⟨0, _⟩ => show win0_0.index t (0 : Fin 2) * 5000 + 1 * (y 0).val = (i 0).val; rw [h0, e0]; omega
    | ⟨1, _⟩ => show win0_0.index t (1 : Fin 2) * 128 + 1 * (y 1).val = (i 1).val; rw [h1, e1]; omega
  · show V c main_arg0 (((cfg0.win 1).blk t).view.emb y) = V c main_arg0 i
    congr 1
    funext a; apply Fin.ext
    match a with
    | ⟨0, _⟩ => show win0_1.index t (0 : Fin 2) * 5000 + 1 * (y 0).val = (i 0).val; rw [h0, e2]; omega
    | ⟨1, _⟩ => show win0_1.index t (1 : Fin 2) * 128 + 1 * (y 1).val = (i 1).val; rw [h1, e3]; omega
  · funext y
    show V c main_arg2 (((cfg0.win 2).blk t).view.emb y) = V c main_arg2 y
    congr 1
    funext a; apply Fin.ext
    match a with
    | ⟨0, _⟩ => show win0_2.index t (0 : Fin 2) * 128 + 1 * (y 0).val = (y 0).val; rw [e4]; omega
    | ⟨1, _⟩ => show win0_2.index t (1 : Fin 2) * 128 + 1 * (y 1).val = (y 1).val; rw [e5]; omega
  · funext y
    show V c main_arg3 (((cfg0.win 3).blk t).view.emb y) = V c main_arg3 y
    congr 1
    funext a; apply Fin.ext
    match a with
    | ⟨0, _⟩ => show win0_3.index t (0 : Fin 2) * 128 + 1 * (y 0).val = (y 0).val; rw [e6]; omega
    | ⟨1, _⟩ => show win0_3.index t (1 : Fin 2) * 128 + 1 * (y 1).val = (y 1).val; rw [e7]; omega
  · funext y
    show V c main_v23 (((cfg0.win 4).blk t).view.emb y) = V c main_v23 y
    congr 1
    funext a; apply Fin.ext
    match a with
    | ⟨0, _⟩ => show win0_4.index t (0 : Fin 2) * 1 + 1 * (y 0).val = (y 0).val; rw [e8]; omega
    | ⟨1, _⟩ => show win0_4.index t (1 : Fin 2) * 128 + 1 * (y 1).val = (y 1).val; rw [e9]; omega
  · show win0_5.index t (0 : Fin 2) * 5000 + 1 * (j 0).val = win0_5.index t (0 : Fin 2) * 5000 + (j 0).val; omega
  · show win0_5.index t (1 : Fin 2) * 128 + 1 * (j 1).val = (j 1).val; rw [e10]; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row `r` lies in the block of the point that writes row block `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After launch 0 its result array holds the layer on the whole arrays it was entered with. -/
theorem final0 (c : Dev nD) : (dat0 V c).arrAt 5 cfg0.N = layer0 V c :=
  (dat0 V c).arrAt_eq_of_cover 5 (layer0 V c) (fun t _ => flushed0_eq V c t) (cover0)

end Launch0

/-! ## Launch 1 -/

section Launch1
variable (V : (c : Dev nD) → (b : Ref sig .tc) → Buf (Elt Ideal) ((c : Thread nD τ).loc b))

/-- The printed index maps of launch 1, decided over its 20 points: the two row-blocked inputs move with the output, the
    weights and the bias row stay at block 0, and point `t` writes row block `t`. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) < 20 :=
  (by decide +kernel : ∀ t : Fin grid1.N, _)

/-- Every row block is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- The whole-array function launch 1 computes, of the five arrays it is entered with. -/
abbrev layer1 (c : Dev nD) : S100000x128.Idx → EReal :=
  (comb (V c main_v36 : S100000x128.Idx → EReal) (V c main_v24 : S100000x128.Idx → EReal)
    (V c main_arg5 : S128x128.Idx → EReal) (V c main_arg6 : S128x128.Idx → EReal)
    (fun q => (V c main_v37 : S1x128.Idx → EReal) (ix2 (0 : Fin 1) q)))

/-- What point `t` writes back is block `t` of the layer on the whole arrays. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1_eq]
  obtain ⟨e0, e1, e2, e3, e4, e5, e6, e7, e8, e9, e10, e11⟩ := idx_facts1 t
  funext j
  show (comb (iblk1 V c 0 t) (iblk1 V c 1 t) (iblk1 V c 2 t) (iblk1 V c 3 t) (fun q => iblk1 V c 4 t (ix2 (0 : Fin 1) q))) j
    = layer1 V c (((cfg1.win 5).blk t).view.emb j)

  refine comb_block _ _ _ _ _ _ _ _ _ _ (win1_5.index t (0 : Fin 2)) (fun y i h0 h1 => ?_) (fun y i h0 h1 => ?_) ?_ ?_ ?_ j _ ?_ ?_
  · show V c main_v36 (((cfg1.win 0).blk t).view.emb y) = V c main_v36 i
    congr 1
    funext a; apply Fin.ext
    match a with
    | ⟨0, _⟩ => show win1_0.index t (0 : Fin 2) * 5000 + 1 * (y 0).val = (i 0).val; rw [h0, e0]; omega
    | ⟨1, _⟩ => show win1_0.index t (1 : Fin 2) * 128 + 1 * (y 1).val = (i 1).val; rw [h1, e1]; omega
  · show V c main_v24 (((cfg1.win 1).blk t).view.emb y) = V c main_v24 i
    congr 1
    funext a; apply Fin.ext
    match a with
    | ⟨0, _⟩ => show win1_1.index t (0 : Fin 2) * 5000 + 1 * (y 0).val = (i 0).val; rw [h0, e2]; omega
    | ⟨1, _⟩ => show win1_1.index t (1 : Fin 2) * 128 + 1 * (y 1).val = (i 1).val; rw [h1, e3]; omega
  · funext y
    show V c main_arg5 (((cfg1.win 2).blk t).view.emb y) = V c main_arg5 y
    congr 1
    funext a; apply Fin.ext
    match a with
    | ⟨0, _⟩ => show win1_2.index t (0 : Fin 2) * 128 + 1 * (y 0).val = (y 0).val; rw [e4]; omega
    | ⟨1, _⟩ => show win1_2.index t (1 : Fin 2) * 128 + 1 * (y 1).val = (y 1).val; rw [e5]; omega
  · funext y
    show V c main_arg6 (((cfg1.win 3).blk t).view.emb y) = V c main_arg6 y
    congr 1
    funext a; apply Fin.ext
    match a with
    | ⟨0, _⟩ => show win1_3.index t (0 : Fin 2) * 128 + 1 * (y 0).val = (y 0).val; rw [e6]; omega
    | ⟨1, _⟩ => show win1_3.index t (1 : Fin 2) * 128 + 1 * (y 1).val = (y 1).val; rw [e7]; omega
  · funext y
    show V c main_v37 (((cfg1.win 4).blk t).view.emb y) = V c main_v37 y
    congr 1
    funext a; apply Fin.ext
    match a with
    | ⟨0, _⟩ => show win1_4.index t (0 : Fin 2) * 1 + 1 * (y 0).val = (y 0).val; rw [e8]; omega
    | ⟨1, _⟩ => show win1_4.index t (1 : Fin 2) * 128 + 1 * (y 1).val = (y 1).val; rw [e9]; omega
  · show win1_5.index t (0 : Fin 2) * 5000 + 1 * (j 0).val = win1_5.index t (0 : Fin 2) * 5000 + (j 0).val; omega
  · show win1_5.index t (1 : Fin 2) * 128 + 1 * (j 1).val = (j 1).val; rw [e10]; omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Row `r` lies in the block of the point that writes row block `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After launch 1 its result array holds the layer on the whole arrays it was entered with. -/
theorem final1 (c : Dev nD) : (dat1 V c).arrAt 5 cfg1.N = layer1 V c :=
  (dat1 V c).arrAt_eq_of_cover 5 (layer1 V c) (fun t _ => flushed1_eq V c t) (cover1)

end Launch1

end Cert.KernelIdeal.Layers

end
-- ==== Proof.RefValue.lean ====
/-
  The reference program's result as the two-layer network of `SageLayer` over its own neighbourhood mean.

  The reference computes, for a feature array `y`, the mean over each node's incoming edges of the source rows of `y`
  (a row gather, a scatter-add over the destinations, a division by the clamped in-degree): that function of `y` and of
  the edge list is `mean` here, taken whole from the program's own operations and never opened.  Around it the reference
  spells a layer as two dot products, added, plus the bias vector placed on a row and on every row; the hidden layer's
  rectifier is the maximum with a broadcast zero.  The second layer's mean is the same operations applied to the hidden
  array.
-/
import proofs.«120897_j54571854463793_1_alg».proof.Proof.Gen.ReferenceIdeal.Read
import proofs.«120897_j54571854463793_1_alg».proof.Proof.SageLayer

noncomputable section

open Idealize.ShloMosaic Idealize.ShloMosaic.TcCoe Idealize.SL.Sem Idealize.ShloMosaic.ValueIdx

namespace Cert.ReferenceIdeal.Whole

open Cert.ReferenceIdeal Cert.ReferenceIdeal.Read Cert.Sage Cert.DenseLayer

/-- The neighbourhood mean of a feature array `y` over the edge list `e`, as the reference's host operations compute it. -/
abbrev mean (e : (⟨S2x1600000, .i32⟩ : BufTy).Contents (Elt Ideal)) (y : S100000x128.Idx → EReal) : S100000x128.Idx → EReal :=
  val_main_v22 (F := Ideal) y e

/-- The reference's contraction is the plain `[100000,128] × [128,128]` one. -/
theorem dot_plain : dot_S100000x128_S128x128_S100000x128_1_0_0_1_n_n = DotDims.plain 100000 128 128 := rfl

/-- The hidden array: the rectified layer of the features and their mean. -/
theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4 = rect (comb (mean x1 x0) x0 x2 x3 (vec x4)) := by
  unfold val_main_v29 val_main_v28 val_main_v25 val_main_v27 val_main_v26 val_main_v24 val_main_v23 val_main_call0_v0 val_main_call0_cst
  refine (max_bcast_zero_eq _ _).trans (congrArg rect ?_)
  exact dot_comb_eq _ dot_plain none _ _ _ _ x4 _ _

/-- The second layer's mean is the same operations on the hidden array. -/
theorem mean_hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v48 (F := Ideal) x0 x1 x2 x3 x4 = mean x1 (val_main_v29 (F := Ideal) x0 x1 x2 x3 x4) := rfl

/-- The reference's result is the two-layer network over its mean. -/
theorem out_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v54 (F := Ideal) x0 x1 x2 x3 x4 x5 x6 x7 = net (mean x1) x0 x2 x3 (vec x4) x5 x6 (vec x7) := by
  unfold val_main_v54 val_main_v51 val_main_v53 val_main_v52 val_main_v50 val_main_v49
  rw [mean_hidden_eq, hidden_eq]
  unfold net
  exact dot_comb_eq _ dot_plain none _ _ _ _ x7 _ _

end Cert.ReferenceIdeal.Whole

end
-- ==== Proof.KernelValue.lean ====
/-
  The idealized kernel program's result as the two-layer network of `SageLayer` over the reference's neighbourhood mean.

  Before each launch the host operations gather the source rows of the current feature array, scatter-add them over the
  destinations and divide by the clamped in-degree: the very operations by which the reference computes its mean, on the
  same edge list, so the array the launch finds as its first operand is the reference's `mean` of the feature array (the
  in-degree is computed once here and reused; as a term it is the same).  The launch then leaves in its result array the
  layer of `LayerRegions` on the arrays it was entered with.  The second stretch reads the first launch's result where
  the first read the features.
-/
import proofs.«120897_j54571854463793_1_alg».proof.Proof.KernelRun
import proofs.«120897_j54571854463793_1_alg».proof.Proof.LayerRegions
import proofs.«120897_j54571854463793_1_alg».proof.Proof.RefValue
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen Cert.KernelIdeal.Layers Cert.Sage Cert.DenseLayer
open Cert.ReferenceIdeal.Whole (mean)

variable (m : (ℓ : Loc nD τ sig) → Buf (Elt Ideal) ℓ) (ρ : Dev nD → PrngReg)

/-! ## What the first launch is entered with -/

set_option maxHeartbeats 4000000 in
theorem entry0_mean (c : Dev nD) :
    (V1 m ρ c main_v22 : S100000x128.Idx → EReal) = mean (m ((c.tc : Thread nD τ).loc main_arg1)) (m ((c.tc : Thread nD τ).loc main_arg0)) := by
  show StableHlo.after hostOps0 (W0 m ρ c) (Proc.devRef .tc main_v22) = _
  after_results_simp
  rfl

theorem entry0_x (c : Dev nD) : (V1 m ρ c main_arg0 : S100000x128.Idx → EReal) = m ((c.tc : Thread nD τ).loc main_arg0) := by
  show StableHlo.after hostOps0 (W0 m ρ c) (Proc.devRef .tc main_arg0) = _
  after_results

theorem entry0_wl (c : Dev nD) : (V1 m ρ c main_arg2 : S128x128.Idx → EReal) = m ((c.tc : Thread nD τ).loc main_arg2) := by
  show StableHlo.after hostOps0 (W0 m ρ c) (Proc.devRef .tc main_arg2) = _
  after_results

theorem entry0_wr (c : Dev nD) : (V1 m ρ c main_arg3 : S128x128.Idx → EReal) = m ((c.tc : Thread nD τ).loc main_arg3) := by
  show StableHlo.after hostOps0 (W0 m ρ c) (Proc.devRef .tc main_arg3) = _
  after_results

theorem entry0_b (c : Dev nD) :
    (V1 m ρ c main_v23 : S1x128.Idx → EReal) = shapeCast S1x128 (m ((c.tc : Thread nD τ).loc main_arg4) : S128.Idx → EReal) shapeCasts_S128_S1x128 := by
  show StableHlo.after hostOps0 (W0 m ρ c) (Proc.devRef .tc main_v23) = _
  after_results
  rfl

/-- A vector cast to one row reads, along that row, as the vector. -/
theorem bias_row (b : S128.Idx → EReal) :
    (fun q : Fin 128 => shapeCast S1x128 b shapeCasts_S128_S1x128 (ix2 (0 : Fin 1) q)) = vec b :=
  funext fun q => shapeCast_a_1a_apply b shapeCasts_S128_S1x128 0 q

/-! ## The hidden array -/

/-- After the first launch its result array holds the rectified layer of the features and their mean. -/
theorem hidden (c : Dev nD) :
    (W2 m ρ c (Proc.devRef .tc main_v24) : S100000x128.Idx → EReal)
      = rect (comb (mean (m ((c.tc : Thread nD τ).loc main_arg1)) (m ((c.tc : Thread nD τ).loc main_arg0)))
          (m ((c.tc : Thread nD τ).loc main_arg0)) (m ((c.tc : Thread nD τ).loc main_arg2)) (m ((c.tc : Thread nD τ).loc main_arg3))
          (vec (m ((c.tc : Thread nD τ).loc main_arg4)))) := by
  refine (W2_arr m ρ c 5).trans ((final0 (V1 m ρ) c).trans ?_)
  show rect (comb (V1 m ρ c main_v22 : S100000x128.Idx → EReal) (V1 m ρ c main_arg0 : S100000x128.Idx → EReal)
    (V1 m ρ c main_arg2 : S128x128.Idx → EReal) (V1 m ρ c main_arg3 : S128x128.Idx → EReal)
    (fun q => (V1 m ρ c main_v23 : S1x128.Idx → EReal) (ix2 (0 : Fin 1) q))) = _
  rw [entry0_mean, entry0_x, entry0_wl, entry0_wr, entry0_b, bias_row]

/-! ## What the second launch is entered with -/

/-- The first stretch's edge sources, destinations and clamped in-degrees survive the first launch. -/
theorem kept_src (c : Dev nD) :
    (W2 m ρ c (Proc.devRef .tc main_v1) : S1600000.Idx → BitVec 32) = Cert.ReferenceIdeal.Read.val_main_v1 (F := Ideal) (m ((c.tc : Thread nD τ).loc main_arg1)) :=
  (W2_of_ne m ρ c main_v1 (by decide)).trans (by
    show StableHlo.after hostOps0 (W0 m ρ c) (Proc.devRef .tc main_v1) = _
    after_results
    rfl)

theorem kept_dst (c : Dev nD) :
    (W2 m ρ c (Proc.devRef .tc main_v3) : S1600000.Idx → BitVec 32) = Cert.ReferenceIdeal.Read.val_main_v3 (F := Ideal) (m ((c.tc : Thread nD τ).loc main_arg1)) :=
  (W2_of_ne m ρ c main_v3 (by decide)).trans (by
    show StableHlo.after hostOps0 (W0 m ρ c) (Proc.devRef .tc main_v3) = _
    after_results
    rfl)

set_option maxHeartbeats 4000000 in
theorem kept_deg (c : Dev nD) :
    (W2 m ρ c (Proc.devRef .tc main_v10) : S100000x1.Idx → EReal) = Cert.ReferenceIdeal.Read.val_main_v20 (F := Ideal) (m ((c.tc : Thread nD τ).loc main_arg1)) :=
  (W2_of_ne m ρ c main_v10 (by decide)).trans (by
    show StableHlo.after hostOps0 (W0 m ρ c) (Proc.devRef .tc main_v10) = _
    after_results_simp
    rfl)

theorem kept_wl (c : Dev nD) : (W2 m ρ c (Proc.devRef .tc main_arg5) : S128x128.Idx → EReal) = m ((c.tc : Thread nD τ).loc main_arg5) :=
  (W2_of_ne m ρ c main_arg5 (by decide)).trans (by
    show StableHlo.after hostOps0 (W0 m ρ c) (Proc.devRef .tc main_arg5) = _
    after_results)

theorem kept_wr (c : Dev nD) : (W2 m ρ c (Proc.devRef .tc main_arg6) : S128x128.Idx → EReal) = m ((c.tc : Thread nD τ).loc main_arg6) :=
  (W2_of_ne m ρ c main_arg6 (by decide)).trans (by
    show StableHlo.after hostOps0 (W0 m ρ c) (Proc.devRef .tc main_arg6) = _
    after_results)

theorem kept_b (c : Dev nD) : (W2 m ρ c (Proc.devRef .tc main_arg7) : S128.Idx → EReal) = m ((c.tc : Thread nD τ).loc main_arg7) :=
  (W2_of_ne m ρ c main_arg7 (by decide)).trans (by
    show StableHlo.after hostOps0 (W0 m ρ c) (Proc.devRef .tc main_arg7) = _
    after_results)

set_option maxHeartbeats 4000000 in
/-- The second launch's first operand is the mean of the hidden array. -/
theorem entry1_mean (c : Dev nD) :
    (V3 m ρ c main_v36 : S100000x128.Idx → EReal)
      = mean (m ((c.tc : Thread nD τ).loc main_arg1)) (W2 m ρ c (Proc.devRef .tc main_v24) : S100000x128.Idx → EReal) := by
  show StableHlo.after hostOps1 (W2 m ρ c) (Proc.devRef .tc main_v36) = _
  after_results_simp
  rw [kept_src, kept_dst, kept_deg]
  rfl

theorem entry1_x (c : Dev nD) : (V3 m ρ c main_v24 : S100000x128.Idx → EReal) = W2 m ρ c (Proc.devRef .tc main_v24) := by
  show StableHlo.after hostOps1 (W2 m ρ c) (Proc.devRef .tc main_v24) = _
  after_results

theorem entry1_wl (c : Dev nD) : (V3 m ρ c main_arg5 : S128x128.Idx → EReal) = m ((c.tc : Thread nD τ).loc main_arg5) := by
  show StableHlo.after hostOps1 (W2 m ρ c) (Proc.devRef .tc main_arg5) = _
  after_results
  exact kept_wl m ρ c

theorem entry1_wr (c : Dev nD) : (V3 m ρ c main_arg6 : S128x128.Idx → EReal) = m ((c.tc : Thread nD τ).loc main_arg6) := by
  show StableHlo.after hostOps1 (W2 m ρ c) (Proc.devRef .tc main_arg6) = _
  after_results
  exact kept_wr m ρ c

theorem entry1_b (c : Dev nD) :
    (V3 m ρ c main_v37 : S1x128.Idx → EReal) = shapeCast S1x128 (m ((c.tc : Thread nD τ).loc main_arg7) : S128.Idx → EReal) shapeCasts_S128_S1x128 := by
  show StableHlo.after hostOps1 (W2 m ρ c) (Proc.devRef .tc main_v37) = _
  after_results
  rw [kept_b]
  rfl

/-! ## The result -/

/-- After the second launch the result array holds the two-layer network of the arguments. -/
theorem result (c : Dev nD) :
    (W4 m ρ c (Proc.devRef .tc main_v38) : S100000x128.Idx → EReal)
      = net (mean (m ((c.tc : Thread nD τ).loc main_arg1))) (m ((c.tc : Thread nD τ).loc main_arg0))
          (m ((c.tc : Thread nD τ).loc main_arg2)) (m ((c.tc : Thread nD τ).loc main_arg3)) (vec (m ((c.tc : Thread nD τ).loc main_arg4)))
          (m ((c.tc : Thread nD τ).loc main_arg5)) (m ((c.tc : Thread nD τ).loc main_arg6)) (vec (m ((c.tc : Thread nD τ).loc main_arg7))) := by
  refine (W4_arr m ρ c 5).trans ((final1 (V3 m ρ) c).trans ?_)
  show comb (V3 m ρ c main_v36 : S100000x128.Idx → EReal) (V3 m ρ c main_v24 : S100000x128.Idx → EReal)
    (V3 m ρ c main_arg5 : S128x128.Idx → EReal) (V3 m ρ c main_arg6 : S128x128.Idx → EReal)
    (fun q => (V3 m ρ c main_v37 : S1x128.Idx → EReal) (ix2 (0 : Fin 1) q)) = _
  rw [entry1_mean, entry1_x, entry1_wl, entry1_wr, entry1_b, bias_row, hidden]
  rfl

/-- The run, read: the result array at the two-layer network of the arguments, the arguments unchanged. -/
theorem run : θ_run defs (onTc (τ := τ) (main (F := Ideal))) ⟨m, fun _ => 0, ρ⟩ (fun r => ∀ c : Dev nD,
      r.2.mem ((c.tc : Thread nD τ).loc main_v38)
        = net (mean (m ((c.tc : Thread nD τ).loc main_arg1))) (m ((c.tc : Thread nD τ).loc main_arg0))
          (m ((c.tc : Thread nD τ).loc main_arg2)) (m ((c.tc : Thread nD τ).loc main_arg3)) (vec (m ((c.tc : Thread nD τ).loc main_arg4)))
          (m ((c.tc : Thread nD τ).loc main_arg5)) (m ((c.tc : Thread nD τ).loc main_arg6)) (vec (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Named.run_result m ρ)

end Cert.KernelIdeal.Whole

end
-- ==== Proof.lean ====
/-
  Two GraphSAGE layers on 100000 nodes with 128 features over 1600000 edges: the kernel program against its jnp reference,
  over the extended reals.

  Both programs form, for the current feature array, the mean over each node's incoming edges of the source rows (a row
  gather, a scatter-add over the destinations, a division by the in-degree clamped below at 1), and both feed that mean and
  the features through `mean · W_l + x · W_r + b`, rectified after the first layer.  They differ in where the dense part
  runs and how it is spelt: the kernel program launches one grid of 20 row blocks per layer, each point forming its 5000
  rows by two matrix products into zero accumulators (the operands first narrowed to a shorter float format, which changes
  nothing over the extended reals) plus a one-row bias; the reference takes two whole dot products plus a broadcast
  bias.  Entry `(r, n)` of a layer depends on row `r` of the row-indexed operands only, so the 20 blocks are the 20 row
  blocks of the layer on the whole arrays and tile it.  The neighbourhood mean is the same operations in both programs
  and is never opened: with it abstract, both results are the one function `Sage.net` of the arguments.  No algebraic law
  beyond reading the products as sums is used, so the finiteness of the inputs is not needed.

  The three frames are the generated ones (the reference's is its generated run with the result dropped); the
  idealization rewrote nothing, so `preserves` is trivial.
-/
import proofs.«120897_j54571854463793_1_alg».proof.Defs
import proofs.«120897_j54571854463793_1_alg».proof.Proof.Gen.Kernel
import proofs.«120897_j54571854463793_1_alg».proof.Proof.Gen.Kernel.Skeleton
import proofs.«120897_j54571854463793_1_alg».proof.Proof.Gen.Kernel.Launch
import proofs.«120897_j54571854463793_1_alg».proof.Proof.Gen.Kernel.Points
import proofs.«120897_j54571854463793_1_alg».proof.Proof.Gen.Kernel.Frame
import proofs.«120897_j54571854463793_1_alg».proof.Proof.Gen.KernelIdeal
import proofs.«120897_j54571854463793_1_alg».proof.Proof.Gen.KernelIdeal.Skeleton
import proofs.«120897_j54571854463793_1_alg».proof.Proof.Gen.KernelIdeal.Launch
import proofs.«120897_j54571854463793_1_alg».proof.Proof.Gen.KernelIdeal.Points
import proofs.«120897_j54571854463793_1_alg».proof.Proof.Gen.KernelIdeal.Frame
import proofs.«120897_j54571854463793_1_alg».proof.Proof.Gen.ReferenceIdeal
import proofs.«120897_j54571854463793_1_alg».proof.Proof.Gen.Pre_finite_inputs
import proofs.«120897_j54571854463793_1_alg».proof.Proof.Gen.ReferenceIdeal.Run
import proofs.«120897_j54571854463793_1_alg».proof.Proof.Gen.ReferenceIdeal.Read
import proofs.«120897_j54571854463793_1_alg».proof.Proof.KernelValue
import proofs.«120897_j54571854463793_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two-layer network of the arguments in their result arrays: the kernel program by
    `KernelIdeal.Whole.run`, the reference by its generated run read as `ReferenceIdeal.Whole.out_eq`; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, Cert.ReferenceIdeal.Whole.out_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
